-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x256 : Shape := ⟨4, ![16, 256, 128, 256]⟩
abbrev S19x256 : Shape := ⟨2, ![19, 256]⟩
abbrev S1 : Shape := ⟨1, ![1]⟩
abbrev S_ : Shape := ⟨0, ![]⟩

class Facts : Prop where
  bcast_S_S16x256x128x256 : S_.BroadcastsInDim S16x256x128x256 (![] : Fin 0 → Fin S16x256x128x256.rank)
  reducesTo_S16x256x128x256_S_d0_1_2_3 : S16x256x128x256.ReducesTo [0, 1, 2, 3] S_
  h_S_ : 0 < S_.numel
  bcast_S_S19x256 : S_.BroadcastsInDim S19x256 (![] : Fin 0 → Fin S19x256.rank)
  reducesTo_S19x256_S_d0_1 : S19x256.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S16x256x128x256 .f32) (main_arg1 : FVec F S19x256 .f32) (main_arg2 : FVec F S1 .f32) : IVec S_ 1 :=
  let main_v0 : FVec F S16x256x128x256 .f32 := Host.absf main_arg0
  let main_cst : FVec F S_ .f32 := constant S_ .f32 0x7F800000#32
  let main_v1 : FVec F S16x256x128x256 .f32 := broadcastInDim S16x256x128x256 ![] bcast_S_S16x256x128x256 main_cst
  let main_v2 : IVec S16x256x128x256 1 := cmpf .olt main_v0 main_v1
  let main_c : IVec S_ 1 := constantI S_ 1 1#1
  let main_v3 : IVec S_ 1 := (fun x v => Host.reduce IntOp.andi x v reducesTo_S16x256x128x256_S_d0_1_2_3 h_S_) main_v2 main_c
  let main_v4 : FVec F S19x256 .f32 := Host.absf main_arg1
  let main_cst_0 : FVec F S_ .f32 := constant S_ .f32 0x7F800000#32
  let main_v5 : FVec F S19x256 .f32 := broadcastInDim S19x256 ![] bcast_S_S19x256 main_cst_0
  let main_v6 : IVec S19x256 1 := cmpf .olt main_v4 main_v5
  let main_c_1 : IVec S_ 1 := constantI S_ 1 1#1
  let main_v7 : IVec S_ 1 := (fun x v => Host.reduce IntOp.andi x v reducesTo_S19x256_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S16x256x128x256 : Shape := ⟨4, ![16, 256, 128, 256]⟩
abbrev S19x256 : Shape := ⟨2, ![19, 256]⟩
abbrev S1 : Shape := ⟨1, ![1]⟩
abbrev S_ : Shape := ⟨0, ![]⟩
abbrev S19 : Shape := ⟨1, ![19]⟩
abbrev S19x1 : Shape := ⟨2, ![19, 1]⟩
abbrev S256x19 : Shape := ⟨2, ![256, 19]⟩
abbrev S16x128x256x19 : Shape := ⟨4, ![16, 128, 256, 19]⟩
abbrev S1x256x16x256 : Shape := ⟨4, ![1, 256, 16, 256]⟩
abbrev S1x16x256x19 : Shape := ⟨4, ![1, 16, 256, 19]⟩
abbrev S256x16x256 : Shape := ⟨3, ![256, 16, 256]⟩
abbrev S16x256x256 : Shape := ⟨3, ![16, 256, 256]⟩
abbrev S4096x256 : Shape := ⟨2, ![4096, 256]⟩
abbrev S4096 : Shape := ⟨1, ![4096]⟩
abbrev S4096x1 : Shape := ⟨2, ![4096, 1]⟩
abbrev S4096x19 : Shape := ⟨2, ![4096, 19]⟩
abbrev S1x19 : Shape := ⟨2, ![1, 19]⟩
abbrev S16x256x19 : Shape := ⟨3, ![16, 256, 19]⟩
abbrev S16x19x128x256 : Shape := ⟨4, ![16, 19, 128, 256]⟩

abbrev nBuf : Space → Nat
  | .hbm => 20
  | .vmem => 7
  | .smem => 0
  | _ => 0

abbrev bufTy : (tb : Table) → Fin (tcTables nBuf tb) → BufTy
  | .hbm, ⟨0, _⟩ => ⟨S16x256x128x256, .f32⟩
  | .hbm, ⟨1, _⟩ => ⟨S19x256, .f32⟩
  | .hbm, ⟨2, _⟩ => ⟨S1, .f32⟩
  | .hbm, ⟨3, _⟩ => ⟨S19x256, .f32⟩
  | .hbm, ⟨4, _⟩ => ⟨S_, .f32⟩
  | .hbm, ⟨5, _⟩ => ⟨S19, .f32⟩
  | .hbm, ⟨6, _⟩ => ⟨S19x1, .f32⟩
  | .hbm, ⟨7, _⟩ => ⟨S19x1, .f32⟩
  | .hbm, ⟨8, _⟩ => ⟨S_, .f32⟩
  | .hbm, ⟨9, _⟩ => ⟨S19x1, .f32⟩
  | .hbm, ⟨10, _⟩ => ⟨S19x1, .f32⟩
  | .hbm, ⟨11, _⟩ => ⟨S19x256, .f32⟩
  | .hbm, ⟨12, _⟩ => ⟨S19x256, .f32⟩
  | .hbm, ⟨13, _⟩ => ⟨S256x19, .f32⟩
  | .hbm, ⟨14, _⟩ => ⟨S256x19, .bf16⟩
  | .hbm, ⟨15, _⟩ => ⟨S19x256, .f32⟩
  | .hbm, ⟨16, _⟩ => ⟨S_, .f32⟩
  | .hbm, ⟨17, _⟩ => ⟨S19, .f32⟩
  | .hbm, ⟨18, _⟩ => ⟨S16x128x256x19, .f32⟩
  | .hbm, ⟨19, _⟩ => ⟨S16x19x128x256, .f32⟩
  | .local _ .vmem, ⟨0, _⟩ => ⟨S1x256x16x256, .f32⟩
  | .local _ .vmem, ⟨1, _⟩ => ⟨S1x256x16x256, .f32⟩
  | .local _ .vmem, ⟨2, _⟩ => ⟨S256x19, .bf16⟩
  | .local _ .vmem, ⟨3, _⟩ => ⟨S19, .f32⟩
  | .local _ .vmem, ⟨4, _⟩ => ⟨S1, .f32⟩
  | .local _ .vmem, ⟨5, _⟩ => ⟨S1x16x256x19, .f32⟩
  | .local _ .vmem, ⟨6, _⟩ => ⟨S1x16x256x19, .f32⟩
  | _, _ => ⟨S16x256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x19 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S19 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x256x19 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S19x256_S19_d1 : S19x256.ReducesTo [1] S19
  h_S_ : 0 < S_.numel
  bcast_S19_S19x1_0 : S19.BroadcastsInDim S19x1 (![0] : Fin 1 → Fin S19x1.rank)
  bcast_S_S19x1 : S_.BroadcastsInDim S19x1 (![] : Fin 0 → Fin S19x1.rank)
  bcast_S19x1_S19x256_0_1 : S19x1.BroadcastsInDim S19x256 (![0, 1] : Fin 2 → Fin S19x256.rank)
  transposes_S19x256_S256x19_1_0 : S19x256.Transposes [1, 0] S256x19
  bitsLt_bf16_f32 : FTy.bits .bf16 < FTy.bits .f32
  inb_S1x256x16x256_S1x256x16x256_0_0_0_0 : ∀ a, (![0, 0, 0, 0] : Fin 4 → Nat) a + S1x256x16x256.size a ≤ S1x256x16x256.size a
  h_S1x256x16x256 : 0 < S1x256x16x256.numel
  shapeCasts_S1x256x16x256_S256x16x256 : S1x256x16x256.ShapeCasts S256x16x256
  transposes_S256x16x256_p1_2_0_S16x256x256 : S256x16x256.Transposes [1, 2, 0] S16x256x256
  shapeCasts_S16x256x256_S4096x256 : S16x256x256.ShapeCasts S4096x256
  reduces_S4096x256_S4096 : S4096x256.Reduces [1] S4096
  shapeCasts_S4096_S4096x1 : S4096.ShapeCasts S4096x1
  broadcasts_S4096x1_S4096x256 : S4096x1.Broadcasts S4096x256
  inb_S256x19_S256x19_0_0 : ∀ a, (![0, 0] : Fin 2 → Nat) a + S256x19.size a ≤ S256x19.size a
  h_S256x19 : 0 < S256x19.numel
  shapeCasts_S256x19_S256x19 : S256x19.ShapeCasts S256x19
  inb_S19_S19_0 : ∀ a, (![0] : Fin 1 → Nat) a + S19.size a ≤ S19.size a
  h_S19 : 0 < S19.numel
  shapeCasts_S19_S19 : S19.ShapeCasts S19
  shapeCasts_S19_S1x19 : S19.ShapeCasts S1x19
  broadcasts_S4096x1_S4096x19 : S4096x1.Broadcasts S4096x19
  broadcasts_S1x19_S4096x19 : S1x19.Broadcasts S4096x19
  inb_S1_S1_0 : ∀ a, (![0] : Fin 1 → Nat) a + S1.size a ≤ S1.size a
  h_S1 : 0 < S1.numel
  inpos_S1_p0 : ∀ a, (![0] : Fin 1 → Nat) a < S1.size a
  shapeCasts_S4096x19_S16x256x19 : S4096x19.ShapeCasts S16x256x19
  inb_S1x16x256x19_S1x16x256x19_0_0_0_0 : ∀ a, (![0, 0, 0, 0] : Fin 4 → Nat) a + S1x16x256x19.size a ≤ S1x16x256x19.size a
  h_S1x16x256x19 : 0 < S1x16x256x19.numel
  shapeCasts_S1x16x256x19_S16x256x19 : S1x16x256x19.ShapeCasts S16x256x19
  shapeCasts_S16x256x19_S1x16x256x19 : S16x256x19.ShapeCasts S1x16x256x19
  transposes_S16x128x256x19_S16x19x128x256_0_3_1_2 : S16x128x256x19.Transposes [0, 3, 1, 2] S16x19x128x256
  dot_S4096x256_S256x19_S4096x19_1_0_0_1_n_n_wf : DotDims.WF S4096x256 S256x19 S4096x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16x256.size a ≤ S16x256x128x256.size a
  hwx0_0 : ∀ i : grid0.Coords, EltTy.bits .f32 = 32 ∨ (Rect.block (s := S16x256x128x256) S1x256x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x19.size a ≤ S256x19.size a
  hwx0_1 : ∀ i : grid0.Coords, EltTy.bits .bf16 = 32 ∨ (Rect.block (s := S256x19) S256x19.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S19.size a ≤ S19.size a
  hwx0_2 : ∀ i : grid0.Coords, EltTy.bits .f32 = 32 ∨ (Rect.block (s := S19) S19.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x19.size a ≤ S16x128x256x19.size a
  hwx0_4 : ∀ i : grid0.Coords, EltTy.bits .f32 = 32 ∨ (Rect.block (s := S16x128x256x19) S1x16x256x19.size (cc0_transform_4 i) (hinb0_4 i)).WholeWords (EltTy.packing .f32)

variable [Facts₀]

def dot_S4096x256_S256x19_S4096x19_1_0_0_1_n_n : DotDims S4096x256 S256x19 S4096x19 where
  lhsContracting := [1]
  rhsContracting := [0]
  lhsNonContracting := [0]
  rhsNonContracting := [1]
  lhsBatch := []
  rhsBatch := []
  wf := dot_S4096x256_S256x19_S4096x19_1_0_0_1_n_n_wf

abbrev win0_0 : Pipeline.Window sig grid0 :=
  Pipeline.Window.ofSpec (Memref.whole main_arg0) S1x256x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x19.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S19.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x16x256x19.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x256x128x256 : Shape := ⟨4, ![16, 256, 128, 256]⟩
abbrev S19x256 : Shape := ⟨2, ![19, 256]⟩
abbrev S1 : Shape := ⟨1, ![1]⟩
abbrev S16x128x256x256 : Shape := ⟨4, ![16, 128, 256, 256]⟩
abbrev S524288x256 : Shape := ⟨2, ![524288, 256]⟩
abbrev S_ : Shape := ⟨0, ![]⟩
abbrev S524288 : Shape := ⟨1, ![524288]⟩
abbrev S524288x1 : Shape := ⟨2, ![524288, 1]⟩
abbrev S19 : Shape := ⟨1, ![19]⟩
abbrev S19x1 : Shape := ⟨2, ![19, 1]⟩
abbrev S1x19 : Shape := ⟨2, ![1, 19]⟩
abbrev S524288x19 : Shape := ⟨2, ![524288, 19]⟩
abbrev S1x1 : Shape := ⟨2, ![1, 1]⟩
abbrev S16x128x256x19 : Shape := ⟨4, ![16, 128, 256, 19]⟩
abbrev S16x19x128x256 : Shape := ⟨4, ![16, 19, 128, 256]⟩

abbrev nBuf : Space → Nat
  | .hbm => 55
  | .vmem => 0
  | .smem => 0
  | _ => 0

abbrev bufTy : (tb : Table) → Fin (tcTables nBuf tb) → BufTy
  | .hbm, ⟨0, _⟩ => ⟨S16x256x128x256, .f32⟩
  | .hbm, ⟨1, _⟩ => ⟨S19x256, .f32⟩
  | .hbm, ⟨2, _⟩ => ⟨S1, .f32⟩
  | .hbm, ⟨3, _⟩ => ⟨S16x128x256x256, .f32⟩
  | .hbm, ⟨4, _⟩ => ⟨S524288x256, .f32⟩
  | .hbm, ⟨5, _⟩ => ⟨S524288x256, .f32⟩
  | .hbm, ⟨6, _⟩ => ⟨S_, .f32⟩
  | .hbm, ⟨7, _⟩ => ⟨S524288, .f32⟩
  | .hbm, ⟨8, _⟩ => ⟨S524288x1, .f32⟩
  | .hbm, ⟨9, _⟩ => ⟨S524288x1, .f32⟩
  | .hbm, ⟨10, _⟩ => ⟨S_, .f32⟩
  | .hbm, ⟨11, _⟩ => ⟨S524288x1, .f32⟩
  | .hbm, ⟨12, _⟩ => ⟨S524288x1, .f32⟩
  | .hbm, ⟨13, _⟩ => ⟨S524288x256, .f32⟩
  | .hbm, ⟨14, _⟩ => ⟨S524288x256, .f32⟩
  | .hbm, ⟨15, _⟩ => ⟨S19x256, .f32⟩
  | .hbm, ⟨16, _⟩ => ⟨S_, .f32⟩
  | .hbm, ⟨17, _⟩ => ⟨S19, .f32⟩
  | .hbm, ⟨18, _⟩ => ⟨S19x1, .f32⟩
  | .hbm, ⟨19, _⟩ => ⟨S19x1, .f32⟩
  | .hbm, ⟨20, _⟩ => ⟨S_, .f32⟩
  | .hbm, ⟨21, _⟩ => ⟨S19x1, .f32⟩
  | .hbm, ⟨22, _⟩ => ⟨S19x1, .f32⟩
  | .hbm, ⟨23, _⟩ => ⟨S19x256, .f32⟩
  | .hbm, ⟨24, _⟩ => ⟨S19x256, .f32⟩
  | .hbm, ⟨25, _⟩ => ⟨S524288x256, .f32⟩
  | .hbm, ⟨26, _⟩ => ⟨S_, .f32⟩
  | .hbm, ⟨27, _⟩ => ⟨S524288, .f32⟩
  | .hbm, ⟨28, _⟩ => ⟨S19x256, .f32⟩
  | .hbm, ⟨29, _⟩ => ⟨S_, .f32⟩
  | .hbm, ⟨30, _⟩ => ⟨S19, .f32⟩
  | .hbm, ⟨31, _⟩ => ⟨S524288x1, .f32⟩
  | .hbm, ⟨32, _⟩ => ⟨S1x19, .f32⟩
  | .hbm, ⟨33, _⟩ => ⟨S524288x19, .f32⟩
  | .hbm, ⟨34, _⟩ => ⟨S524288x19, .f32⟩
  | .hbm, ⟨35, _⟩ => ⟨S524288x19, .f32⟩
  | .hbm, ⟨36, _⟩ => ⟨S524288x19, .f32⟩
  | .hbm, ⟨37, _⟩ => ⟨S_, .f32⟩
  | .hbm, ⟨38, _⟩ => ⟨S524288x19, .f32⟩
  | .hbm, ⟨39, _⟩ => ⟨S524288x19, .f32⟩
  | .hbm, ⟨40, _⟩ => ⟨S524288x19, .f32⟩
  | .hbm, ⟨41, _⟩ => ⟨S_, .f32⟩
  | .hbm, ⟨42, _⟩ => ⟨S524288x19, .f32⟩
  | .hbm, ⟨43, _⟩ => ⟨S524288x19, .f32⟩
  | .hbm, ⟨44, _⟩ => ⟨S524288x19, .f32⟩
  | .hbm, ⟨45, _⟩ => ⟨S1, .f32⟩
  | .hbm, ⟨46, _⟩ => ⟨S1x1, .f32⟩
  | .hbm, ⟨47, _⟩ => ⟨S524288x19, .f32⟩
  | .hbm, ⟨48, _⟩ => ⟨S524288x19, .f32⟩
  | .hbm, ⟨49, _⟩ => ⟨S16x128x256x19, .f32⟩
  | .hbm, ⟨50, _⟩ => ⟨S16x19x128x256, .f32⟩
  | .hbm, ⟨51, _⟩ => ⟨S16x19x128x256, .f32⟩
  | .hbm, ⟨52, _⟩ => ⟨S_, .f32⟩
  | .hbm, ⟨53, _⟩ => ⟨S16x19x128x256, .f32⟩
  | .hbm, ⟨54, _⟩ => ⟨S16x19x128x256, .f32⟩
  | _, _ => ⟨S16x256x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]

class Facts₀ : Prop where
  transposes_S16x256x128x256_S16x128x256x256_0_2_3_1 : S16x256x128x256.Transposes [0, 2, 3, 1] S16x128x256x256
  shapeCasts_S16x128x256x256_S524288x256 : S16x128x256x256.ShapeCasts S524288x256
  reducesTo_S524288x256_S524288_d1 : S524288x256.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x256_0_1 : S524288x1.BroadcastsInDim S524288x256 (![0, 1] : Fin 2 → Fin S524288x256.rank)
  reducesTo_S19x256_S19_d1 : S19x256.ReducesTo [1] S19
  bcast_S19_S19x1_0 : S19.BroadcastsInDim S19x1 (![0] : Fin 1 → Fin S19x1.rank)
  bcast_S_S19x1 : S_.BroadcastsInDim S19x1 (![] : Fin 0 → Fin S19x1.rank)
  bcast_S19x1_S19x256_0_1 : S19x1.BroadcastsInDim S19x256 (![0, 1] : Fin 2 → Fin S19x256.rank)
  bcast_S19_S1x19_1 : S19.BroadcastsInDim S1x19 (![1] : Fin 1 → Fin S1x19.rank)
  bcast_S524288x1_S524288x19_0_1 : S524288x1.BroadcastsInDim S524288x19 (![0, 1] : Fin 2 → Fin S524288x19.rank)
  bcast_S1x19_S524288x19_0_1 : S1x19.BroadcastsInDim S524288x19 (![0, 1] : Fin 2 → Fin S524288x19.rank)
  bcast_S_S524288x19 : S_.BroadcastsInDim S524288x19 (![] : Fin 0 → Fin S524288x19.rank)
  bcast_S1_S1x1_1 : S1.BroadcastsInDim S1x1 (![1] : Fin 1 → Fin S1x1.rank)
  bcast_S1x1_S524288x19_0_1 : S1x1.BroadcastsInDim S524288x19 (![0, 1] : Fin 2 → Fin S524288x19.rank)
  shapeCasts_S524288x19_S16x128x256x19 : S524288x19.ShapeCasts S16x128x256x19
  transposes_S16x128x256x19_S16x19x128x256_0_3_1_2 : S16x128x256x19.Transposes [0, 3, 1, 2] S16x19x128x256
  bcast_S_S16x19x128x256 : S_.BroadcastsInDim S16x19x128x256 (![] : Fin 0 → Fin S16x19x128x256.rank)
  dot_S524288x256_S19x256_S524288x19_1_1_0_0_n_n_wf : DotDims.WF S524288x256 S19x256 S524288x19 [1] [1] [0] [0] [] []

variable [Facts₀]

def dot_S524288x256_S19x256_S524288x19_1_1_0_0_n_n : DotDims S524288x256 S19x256 S524288x19 where
  lhsContracting := [1]
  rhsContracting := [1]
  lhsNonContracting := [0]
  rhsNonContracting := [0]
  lhsBatch := []
  rhsBatch := []
  wf := dot_S524288x256_S19x256_S524288x19_1_1_0_0_n_n_wf

class Facts : Prop extends Facts₀ where

variable [Facts]
-- ==== Proof.Spec.lean ====
/-
  The function both programs compute, over the extended reals, index by index.

  For a pixel (b, h, w) of the feature map let x be its 256 channel values, and for a class k let p be the
  256 entries of prototype k. Write u(r) = r / max(sqrt(sum r²), eps) for a row scaled to unit length (eps the
  shared single-precision word closest to 1e-12). The result at (b, k, h, w) is

      -( |s| · sqrt( max( (sum u(x)² + sum u(p)²) - 2 · sum u(x)·u(p), 0 ) ) ) / 1,

  the negated, scaled Euclidean distance between the two unit vectors through its quadratic expansion, with s the
  one entry of the scale array. Every operation is the exact one on the extended reals, so the order in which a
  sum over the 256 channels is taken is immaterial. The float words are kept as words: the same word denotes the
  same extended real wherever it occurs; only 0 and 1 are evaluated, where a law needs their values.
-/
import Idealize.ShloMosaic.PureOps.Ideal.Laws
import Idealize.ShloMosaic.Lib.ValueIdx

noncomputable section

namespace Cert.UnitDistance

open Idealize.ShloMosaic Idealize.ShloMosaic.ValueIdx

/-- The feature map [batch, channel, row, column]. -/
abbrev Feat : Shape := ⟨4, ![16, 256, 128, 256]⟩
/-- The prototypes [class, channel]. -/
abbrev Proto : Shape := ⟨2, ![19, 256]⟩
/-- The one-entry scale. -/
abbrev Scale : Shape := ⟨1, ![1]⟩
/-- The result [batch, class, row, column]. -/
abbrev Out : Shape := ⟨4, ![16, 19, 128, 256]⟩

/-- The sum of the squares of a row's 256 entries. -/
def sumSq (r : Fin 256 → EReal) : EReal := ∑ c : Fin 256, r c * r c

/-- A row divided by its Euclidean length, the length bounded below by eps. -/
def unit (r : Fin 256 → EReal) (c : Fin 256) : EReal :=
  Ideal.div (r c) (max (Ideal.sqrt (sumSq r)) (Ideal.ofBits .f32 0x2B8CBCCC#32))

/-- The distance between two rows by the quadratic expansion |u|² + |v|² - 2 u·v, clamped at zero before the root;
    `vv` stands for |v|². -/
def dist (u v : Fin 256 → EReal) (vv : EReal) : EReal :=
  Ideal.sqrt (max (sumSq u + vv - Ideal.ofBits .f32 0x40000000#32 * ∑ c : Fin 256, u c * v c)
    (Ideal.ofBits .f32 0x00000000#32))

/-- One entry of the result: the negated scaled distance between the unit vectors of `xr` and `pr`, divided by one. -/
def logit (s : EReal) (xr pr : Fin 256 → EReal) : EReal :=
  Ideal.div (-(max s (-s) * dist (unit xr) (unit pr) (sumSq (unit pr)))) (Ideal.ofBits .f32 0x3F800000#32)

/-- The whole result as one function of the three argument arrays. -/
def G (x : Feat.Idx → EReal) (p : Proto.Idx → EReal) (d : Scale.Idx → EReal) : Out.Idx → EReal := fun i =>
  logit (d (ix1 (0 : Fin 1)))
    (fun c => x (ix4 (n0 := 16) (n1 := 256) (n2 := 128) (n3 := 256) (i 0) c (i 2) (i 3)))
    (fun c => p (ix2 (n0 := 19) (n1 := 256) (i 1) c))

/-- The single-precision word of 1.0 denotes the extended real 1. -/
theorem ofBits_one_f32 : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- Subtracting from zero and then multiplying by one is negating and then dividing by one: on the extended
    reals 0 - y = -y, y · 1 = y and y / 1 = y · 1, for every y, the infinities included. -/
theorem zero_sub_mul_one (y : EReal) :
    (Ideal.ofBits .f32 0x00000000#32 - y) * Ideal.ofBits .f32 0x3F800000#32
      = Ideal.div (-y) (Ideal.ofBits .f32 0x3F800000#32) := by
  rw [Ideal.ofBits_zero_f32, ofBits_one_f32, zero_sub, mul_one]
  have h := Ideal.div_coe (one_ne_zero : (1 : ℝ) ≠ 0) (-y)
  rw [EReal.coe_one] at h
  rw [h]
  norm_num

end Cert.UnitDistance

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibMergeLeadingAxes.lean ====
/-
  Merging the two leading axes of a rank-3 array into one, and splitting them again, read at coordinates.

  In row-major order entry `(r, t, k)` of an `[a, b, c]` array sits at position `(r * b + t) * c + k`, which is
  where entry `(r * b + t, k)` of an `[n, c]` array sits. So a reshape of `[a, b, c]` to `[n, c]` reads, at row
  `p = r * b + t` and column `k`, the operand at `(r, t, k)`; and the reshape back reads, at `(r, t, k)`, the operand
  at row `p`, column `k`. Stated for any element type and any extents, with indices written by their coordinates;
  the merged extent `n` is a parameter so that a printed literal (`512` for `8 * 64`) unifies.
-/
import Idealize.ShloMosaic.Lib.Pipeline.Value
import Idealize.ShloMosaic.Lib.ValueIdx

namespace Idealize.ShloMosaic.MergeLeadingAxes

open Idealize.ShloMosaic Idealize.ShloMosaic.ValueIdx

variable {α : Type}

/-- An `[a, b, c]` array reshaped to `[n, c]` reads, at `(p, k)` with `p = r * b + t`, the operand at `(r, t, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin a) (t : Fin b) (k : Fin c) (p : Fin n)
    (hp : p.val = r.val * b + t.val) :
    shapeCast ⟨2, ![n, c]⟩ x h (ix2 p k) = x (ix3 r t k) :=
  shapeCast_apply x h _ _ (by
    rw [Shape.rowMajor_val_three, Shape.rowMajor_val_two]
    show (r.val * b + t.val) * c + k.val = p.val * c + k.val
    rw [hp])

/-- An `[n, c]` array reshaped to `[a, b, c]` reads, at `(r, t, k)`, the operand at `(p, k)` with `p = r * b + t`. -/
theorem shapeCast_nc_abc_apply {a b c n : ℕ} (x : (⟨2, ![n, c]⟩ : Shape).Idx → α)
    (h : (⟨2, ![n, c]⟩ : Shape).ShapeCasts ⟨3, ![a, b, c]⟩) (r : Fin a) (t : Fin b) (k : Fin c) (p : Fin n)
    (hp : p.val = r.val * b + t.val) :
    shapeCast ⟨3, ![a, b, c]⟩ x h (ix3 r t k) = x (ix2 p k) :=
  shapeCast_apply x h _ _ (by
    rw [Shape.rowMajor_val_three, Shape.rowMajor_val_two]
    show p.val * c + k.val = (r.val * b + t.val) * c + k.val
    rw [hp])

end Idealize.ShloMosaic.MergeLeadingAxes
-- ==== Proof.Body.lean ====
/-
  What the kernel body computes from the four blocks it loads, read at one entry.

  The body receives a slab of the feature map as a [1, 256, 16, 256] block (channel, 16 rows, 256 columns), moves
  the channel axis last and merges (row, column) into one axis of 4096 pixels, so that pixel p = th * 256 + w has the
  256-vector v(p, ·) = x(0, ·, th, w). Each pixel vector is divided by max(sqrt(sum of its squares), eps); the
  squares of the result are summed again; its products with the 19 columns of the second block are summed over the
  256 channels (a matrix product into a zero accumulator, the change of float format being the identity on the
  extended reals); and entry (p, k) of the result is

      (0 - |s| · sqrt(max((sum u(p)² + q(k)) - 2 · sum_c u(p, c) · P(c, k), 0))) · 1

  with q the third block (19 entries) and s the one entry of the fourth. The result is split back into
  [1, 16, 256, 19]. The lemmas below read each of these steps at an index given by its coordinates.
-/
import proofs.«150850_j75780402971149_2_alg».proof.Proof.Gen.KernelIdeal.Skeleton
import proofs.«150850_j75780402971149_2_alg».proof.Proof.Spec
import proofs.«150850_j75780402971149_2_alg».proof.Proof.LibColumnLayout
import proofs.«150850_j75780402971149_2_alg».proof.Proof.LibMergeLeadingAxes
import Idealize.ShloMosaic.Lib.Pipeline.Value
import Idealize.ShloMosaic.Lib.ValueIdx
import Idealize.ShloMosaic.Lib.ValueLayout
import Idealize.ShloMosaic.PureOps.Ideal.Laws

noncomputable section

namespace Cert.UnitDistance.Body

open Idealize.ShloMosaic Idealize.ShloMosaic.ValueIdx Cert.KernelIdeal Cert.KernelIdeal.Gen
open Cert.UnitDistance

/-- The slab as 4096 pixel vectors of 256 channels. -/
def pixels (x0 : Vec Ideal S1x256x16x256 .f32) : FVec Ideal S4096x256 .f32 :=
  shapeCast S4096x256 (transpose S16x256x256 [1, 2, 0] (shapeCast S256x16x256 x0 shapeCasts_S1x256x16x256_S256x16x256)
    transposes_S256x16x256_p1_2_0_S16x256x256) shapeCasts_S16x256x256_S4096x256

/-- The sum of the squares of each pixel vector, kept as a column. -/
def rowSq (v : FVec Ideal S4096x256 .f32) : FVec Ideal S4096x1 .f32 :=
  shapeCast S4096x1 (multiReduction .add [1] S4096 (mulf v v) 0x00000000#32 reduces_S4096x256_S4096 (.inl rfl) rfl)
    shapeCasts_S4096_S4096x1

/-- Each pixel vector's length, bounded below by eps. -/
def rowLen (v : FVec Ideal S4096x256 .f32) : FVec Ideal S4096x1 .f32 :=
  maximumf (sqrt (rowSq v)) (broadcast S4096x1 (Scalar.ofBits .f32 0x2B8CBCCC#32))

/-- Each pixel vector divided by its length. -/
def rowUnit (v : FVec Ideal S4096x256 .f32) : FVec Ideal S4096x256 .f32 :=
  divf v (broadcastTo S4096x256 (rowLen v) broadcasts_S4096x1_S4096x256)

/-- The products of the unit pixel vectors with the columns of the second block. -/
def dots (u : FVec Ideal S4096x256 .f32) (x1 : Vec Ideal S256x19 .bf16) : FVec Ideal S4096x19 .f32 :=
  matmul dot_S4096x256_S256x19_S4096x19_1_0_0_1_n_n none (truncf .bf16 u bitsLt_bf16_f32 : FVec Ideal S4096x256 .bf16)
    (shapeCast S256x19 x1 shapeCasts_S256x19_S256x19 : FVec Ideal S256x19 .bf16) (constant S4096x19 .f32 0x00000000#32)

/-- The body's result per pixel and class, before it is split back into rows and columns. -/
def scores (x0 : Vec Ideal S1x256x16x256 .f32) (x1 : Vec Ideal S256x19 .bf16) (x2 : Vec Ideal S19 .f32) (x3 : Vec Ideal S1 .f32) :
    FVec Ideal S4096x19 .f32 :=
  mulf (subf (broadcast S4096x19 (Scalar.ofBits .f32 0x00000000#32))
      (mulf (broadcast S4096x19 (Scalar.absf (extractAt ![0] x3 inpos_S1_p0)))
        (sqrt (maximumf
          (subf (addf (broadcastTo S4096x19 (rowSq (rowUnit (pixels x0))) broadcasts_S4096x1_S4096x19)
              (broadcastTo S4096x19 (shapeCast S1x19 (shapeCast S19 x2 shapeCasts_S19_S19) shapeCasts_S19_S1x19) broadcasts_S1x19_S4096x19))
            (mulf (broadcast S4096x19 (Scalar.ofBits .f32 0x40000000#32)) (dots (rowUnit (pixels x0)) x1)))
          (broadcast S4096x19 (Scalar.ofBits .f32 0x00000000#32))))))
    (broadcast S4096x19 (Scalar.ofBits .f32 0x3F800000#32))

/-- The stored value is the scores split into [1, 16, 256, 19]: the printed body's operations, named. -/
theorem pay_eq (x0 : Vec Ideal S1x256x16x256 .f32) (x1 : Vec Ideal S256x19 .bf16) (x2 : Vec Ideal S19 .f32) (x3 : Vec Ideal S1 .f32) :
    k0_pay1 (k0_pay2 x0 x1 x2 x3)
      = shapeCast S1x16x256x19 (shapeCast S16x256x19 (scores x0 x1 x2 x3) shapeCasts_S4096x19_S16x256x19) shapeCasts_S16x256x19_S1x16x256x19 :=
  rfl

/-! ## The steps read at coordinates -/

/-- Pixel p = th * 256 + w of the slab has the channel vector x(0, ·, th, w): the merged axis splits into (th, w), the
    transposition sends (th, w, c) to (c, th, w), and the leading unit axis is put back. -/
theorem pixels_at (x0 : Vec Ideal S1x256x16x256 .f32) (th : Fin 16) (w : Fin 256) (c : Fin 256) (p : Fin 4096)
    (hp : p.val = th.val * 256 + w.val) :
    pixels x0 (ix2 (n0 := 4096) (n1 := 256) p c)
      = x0 (ix4 (n0 := 1) (n1 := 256) (n2 := 16) (n3 := 256) (0 : Fin 1) c th w) := by
  unfold pixels
  refine (MergeLeadingAxes.shapeCast_abc_nc_apply _ shapeCasts_S16x256x256_S4096x256 th w c p hp).trans ?_
  refine (transpose_apply [1, 2, 0] _ transposes_S256x16x256_p1_2_0_S16x256x256
    (ix3 (n0 := 16) (n1 := 256) (n2 := 256) th w c) (ix3 (n0 := 256) (n1 := 16) (n2 := 256) c th w)
    (fun b => match b with | ⟨0, _⟩ => rfl | ⟨1, _⟩ => rfl | ⟨2, _⟩ => rfl)).trans ?_
  exact shapeCast_1abc_abc_apply x0 shapeCasts_S1x256x16x256_S256x16x256 c th w

/-- The column of squared lengths at pixel p is the sum over the 256 channels of the squares. -/
theorem rowSq_at (v : FVec Ideal S4096x256 .f32) (p : Fin 4096) (u : Fin 1) :
    rowSq v (ix2 (n0 := 4096) (n1 := 1) p u) = sumSq fun c => v (ix2 (n0 := 4096) (n1 := 256) p c) := by
  unfold rowSq
  refine (ColumnLayout.shapeCast_a_a1_apply _ shapeCasts_S4096_S4096x1 p u).trans ?_
  refine (Ideal.multiReduction_add_single (mulf v v) 0x00000000#32 reduces_S4096x256_S4096 (.inl rfl) rfl
    (ix1 (n := 4096) p)).trans ?_
  unfold sumSq
  refine Finset.sum_congr rfl fun c _ => ?_
  have e : reduces_S4096x256_S4096.lift (ix1 (n := 4096) p) c = ix2 (n0 := 4096) (n1 := 256) p c :=
    funext fun a => Fin.ext (by match a with | ⟨0, _⟩ => rfl | ⟨1, _⟩ => rfl)
  rw [e]
  rfl

/-- The bounded length of pixel p's vector. -/
theorem rowLen_at (v : FVec Ideal S4096x256 .f32) (p : Fin 4096) (u : Fin 1) :
    rowLen v (ix2 (n0 := 4096) (n1 := 1) p u)
      = max (Ideal.sqrt (sumSq fun c => v (ix2 (n0 := 4096) (n1 := 256) p c))) (Ideal.ofBits .f32 0x2B8CBCCC#32) := by
  unfold rowLen
  show max (Ideal.sqrt (rowSq v (ix2 (n0 := 4096) (n1 := 1) p u))) (Ideal.ofBits .f32 0x2B8CBCCC#32) = _
  rw [rowSq_at]

/-- Pixel p's vector scaled to unit length. -/
theorem rowUnit_at (v : FVec Ideal S4096x256 .f32) (p : Fin 4096) (c : Fin 256) :
    rowUnit v (ix2 (n0 := 4096) (n1 := 256) p c) = unit (fun c' => v (ix2 (n0 := 4096) (n1 := 256) p c')) c := by
  unfold rowUnit
  show Ideal.div (v (ix2 (n0 := 4096) (n1 := 256) p c))
    (broadcastTo S4096x256 (rowLen v) broadcasts_S4096x1_S4096x256 (ix2 (n0 := 4096) (n1 := 256) p c)) = _
  rw [ColumnLayout.broadcastTo_a1_ab_apply (rowLen v) broadcasts_S4096x1_S4096x256 p c, rowLen_at]
  rfl

/-- The matrix product's record, for short. -/
abbrev D := dot_S4096x256_S256x19_S4096x19_1_0_0_1_n_n

theorem lhs_row (i : S4096x19.Idx) (q : D.contr.Idx) : (D.lhsIdx i q 0).val = (i 0).val := by
  unfold DotDims.lhsIdx
  rw [dif_neg (show ¬(0 : Fin S4096x256.rank) ∈ D.lhsBatch by decide),
    dif_pos (show (0 : Fin S4096x256.rank) ∈ D.lhsNonContracting by decide)]
  rfl

theorem rhs_col (i : S4096x19.Idx) (q : D.contr.Idx) : (D.rhsIdx i q 1).val = (i 1).val := by
  unfold DotDims.rhsIdx
  rw [dif_neg (show ¬(1 : Fin S256x19.rank) ∈ D.rhsBatch by decide),
    dif_pos (show (1 : Fin S256x19.rank) ∈ D.rhsNonContracting by decide)]
  rfl

/-- Entry (p, k) of the matrix product into the zero accumulator: the sum over the 256 channels of row p of the left
    operand times column k of the right one, the change of float format being the identity. -/
theorem dots_at (u : FVec Ideal S4096x256 .f32) (x1 : Vec Ideal S256x19 .bf16) (p : Fin 4096) (k : Fin 19) :
    dots u x1 (ix2 (n0 := 4096) (n1 := 19) p k)
      = ∑ c : Fin 256, u (ix2 (n0 := 4096) (n1 := 256) p c) * x1 (ix2 (n0 := 256) (n1 := 19) c k) := by
  unfold dots
  rw [shapeCast_self]
  refine (Ideal.matmul_constant_zero_apply (φ₁ := .bf16) (φ₂ := .bf16) D none
    (truncf .bf16 u bitsLt_bf16_f32 : FVec Ideal S4096x256 .bf16) (x1 : FVec Ideal S256x19 .bf16)
    (ix2 (n0 := 4096) (n1 := 19) p k)).trans ?_
  rw [← Equiv.sum_comp (ValueIdx.contrEquiv1 D 256 rfl rfl).symm]
  refine Finset.sum_congr rfl fun c _ => ?_
  have hk := ValueIdx.contrEquiv1_symm_val D 256 rfl rfl c
  have el : D.lhsIdx (ix2 (n0 := 4096) (n1 := 19) p k) ((ValueIdx.contrEquiv1 D 256 rfl rfl).symm c)
      = ix2 (n0 := 4096) (n1 := 256) p c := funext fun a => Fin.ext (by
    match a with
    | ⟨0, _⟩ => exact lhs_row _ _
    | ⟨1, _⟩ => exact (D.lhsIdx_val_of_single rfl _ _).trans hk)
  have er : D.rhsIdx (ix2 (n0 := 4096) (n1 := 19) p k) ((ValueIdx.contrEquiv1 D 256 rfl rfl).symm c)
      = ix2 (n0 := 256) (n1 := 19) c k := funext fun a => Fin.ext (by
    match a with
    | ⟨0, _⟩ => exact (D.rhsIdx_val_of_single rfl _ _).trans hk
    | ⟨1, _⟩ => exact rhs_col _ _)
  rw [el, er]
  rfl

/-- The scale's one entry. -/
theorem scale_at (x3 : Vec Ideal S1 .f32) : extractAt ![0] x3 inpos_S1_p0 = x3 (ix1 (n := 1) (0 : Fin 1)) :=
  congrArg x3 (funext fun a => Fin.ext (by match a with | ⟨0, _⟩ => rfl))

/-- The score of pixel p = th * 256 + w and class k. -/
theorem scores_at (x0 : Vec Ideal S1x256x16x256 .f32) (x1 : Vec Ideal S256x19 .bf16) (x2 : Vec Ideal S19 .f32) (x3 : Vec Ideal S1 .f32)
    (th : Fin 16) (w : Fin 256) (k : Fin 19) (p : Fin 4096) (hp : p.val = th.val * 256 + w.val) :
    scores x0 x1 x2 x3 (ix2 (n0 := 4096) (n1 := 19) p k)
      = (Ideal.ofBits .f32 0x00000000#32
          - max (x3 (ix1 (n := 1) (0 : Fin 1))) (-(x3 (ix1 (n := 1) (0 : Fin 1))))
            * dist (unit fun c => x0 (ix4 (n0 := 1) (n1 := 256) (n2 := 16) (n3 := 256) (0 : Fin 1) c th w))
                (fun c => x1 (ix2 (n0 := 256) (n1 := 19) c k)) (x2 (ix1 (n := 19) k)))
        * Ideal.ofBits .f32 0x3F800000#32 := by
  unfold scores
  show (Ideal.ofBits .f32 0x00000000#32
        - max (extractAt ![0] x3 inpos_S1_p0) (-(extractAt ![0] x3 inpos_S1_p0))
          * Ideal.sqrt (max
              (broadcastTo S4096x19 (rowSq (rowUnit (pixels x0))) broadcasts_S4096x1_S4096x19 (ix2 (n0 := 4096) (n1 := 19) p k)
                + broadcastTo S4096x19 (shapeCast S1x19 (shapeCast S19 x2 shapeCasts_S19_S19) shapeCasts_S19_S1x19)
                    broadcasts_S1x19_S4096x19 (ix2 (n0 := 4096) (n1 := 19) p k)
                - Ideal.ofBits .f32 0x40000000#32 * dots (rowUnit (pixels x0)) x1 (ix2 (n0 := 4096) (n1 := 19) p k))
              (Ideal.ofBits .f32 0x00000000#32)))
      * Ideal.ofBits .f32 0x3F800000#32 = _
  rw [ColumnLayout.broadcastTo_a1_ab_apply _ broadcasts_S4096x1_S4096x19 p k, rowSq_at,
    broadcastTo_1b_ab_apply _ broadcasts_S1x19_S4096x19 p k, shapeCast_a_1a_apply _ shapeCasts_S19_S1x19 (0 : Fin 1) k,
    shapeCast_self, dots_at, scale_at]
  simp only [rowUnit_at, pixels_at x0 th w _ p hp]
  rfl

/-- THE STORED BLOCK AT AN ENTRY: at (0, th, w, k) the body stores the score of pixel (th, w) and class k. -/
theorem pay_at (x0 : Vec Ideal S1x256x16x256 .f32) (x1 : Vec Ideal S256x19 .bf16) (x2 : Vec Ideal S19 .f32) (x3 : Vec Ideal S1 .f32)
    (u : Fin 1) (th : Fin 16) (w : Fin 256) (k : Fin 19) :
    k0_pay1 (k0_pay2 x0 x1 x2 x3) (ix4 (n0 := 1) (n1 := 16) (n2 := 256) (n3 := 19) u th w k)
      = (Ideal.ofBits .f32 0x00000000#32
          - max (x3 (ix1 (n := 1) (0 : Fin 1))) (-(x3 (ix1 (n := 1) (0 : Fin 1))))
            * dist (unit fun c => x0 (ix4 (n0 := 1) (n1 := 256) (n2 := 16) (n3 := 256) (0 : Fin 1) c th w))
                (fun c => x1 (ix2 (n0 := 256) (n1 := 19) c k)) (x2 (ix1 (n := 19) k)))
        * Ideal.ofBits .f32 0x3F800000#32 := by
  have hlt : th.val * 256 + w.val < 4096 := by have := th.isLt; have := w.isLt; omega
  rw [pay_eq]
  refine (shapeCast_abc_1abc_apply _ shapeCasts_S16x256x19_S1x16x256x19 u th w k).trans ?_
  refine (MergeLeadingAxes.shapeCast_nc_abc_apply _ shapeCasts_S4096x19_S16x256x19 th w k
    ⟨th.val * 256 + w.val, hlt⟩ rfl).trans ?_
  exact scores_at x0 x1 x2 x3 th w k _ rfl

end Cert.UnitDistance.Body

end
-- ==== Proof.Block.lean ====
/-
  One grid point's block of the body's result is a block of ONE function of the arrays the windows read.

  The call's grid is 16 batches by 8 slabs of 16 rows. At the point (b, s) the first window stages rows
  16 s … 16 s + 15 of batch b of the feature map, [1, 256, 16, 256]; the second, third and fourth windows stage
  their whole arrays (the [256, 19] matrix, its 19 squared column lengths, the one-entry scale); and the output
  window's block is rows 16 s … 16 s + 15 of batch b of the [16, 128, 256, 19] result. So entry (0, th, w, k) of
  the stored block is entry (b, 16 s + th, w, k) of the function below, whose value depends on the feature map only
  through the channel vector of pixel (b, 16 s + th, w).
-/
import proofs.«150850_j75780402971149_2_alg».proof.Proof.Body

noncomputable section

namespace Cert.UnitDistance.Body

open Idealize.ShloMosaic Idealize.ShloMosaic.ValueIdx Cert.KernelIdeal Cert.KernelIdeal.Gen
open Cert.UnitDistance

/-- The region's output array [batch, row, column, class] as a function of the feature map X, the [256, 19] matrix PT,
    its squared column lengths Q and the scale Dd. -/
def outArr (X : S16x256x128x256.Idx → EReal) (PT : S256x19.Idx → EReal) (Q : S19.Idx → EReal) (Dd : S1.Idx → EReal) :
    S16x128x256x19.Idx → EReal := fun i =>
  (Ideal.ofBits .f32 0x00000000#32
      - max (Dd (ix1 (n := 1) (0 : Fin 1))) (-(Dd (ix1 (n := 1) (0 : Fin 1))))
        * dist (unit fun c => X (ix4 (n0 := 16) (n1 := 256) (n2 := 128) (n3 := 256) (i 0) c (i 1) (i 2)))
            (fun c => PT (ix2 (n0 := 256) (n1 := 19) c (i 3))) (Q (ix1 (n := 19) (i 3))))
    * Ideal.ofBits .f32 0x3F800000#32

/-- The body's result on blocks read from X, PT, Q, Dd through the index maps e0 … e3 is outArr read through e4, when
    e0 and e4 are the slab (b, s)'s embeddings and e1, e2, e3 are the identity: coordinate by coordinate. -/
theorem block_fun (X : S16x256x128x256.Idx → EReal) (PT : S256x19.Idx → EReal) (Q : S19.Idx → EReal) (Dd : S1.Idx → EReal)
    (e0 : S1x256x16x256.Idx → S16x256x128x256.Idx) (e1 : S256x19.Idx → S256x19.Idx) (e2 : S19.Idx → S19.Idx)
    (e3 : S1.Idx → S1.Idx) (e4 : S1x16x256x19.Idx → S16x128x256x19.Idx) (b s : ℕ)
    (h0 : ∀ z : S1x256x16x256.Idx, (e0 z 0).val = b + (z 0).val ∧ (e0 z 1).val = (z 1).val
      ∧ (e0 z 2).val = s * 16 + (z 2).val ∧ (e0 z 3).val = (z 3).val)
    (h1 : ∀ (z : S256x19.Idx) a, (e1 z a).val = (z a).val) (h2 : ∀ (z : S19.Idx) a, (e2 z a).val = (z a).val)
    (h3 : ∀ (z : S1.Idx) a, (e3 z a).val = (z a).val)
    (h4 : ∀ y : S1x16x256x19.Idx, (e4 y 0).val = b + (y 0).val ∧ (e4 y 1).val = s * 16 + (y 1).val
      ∧ (e4 y 2).val = (y 2).val ∧ (e4 y 3).val = (y 3).val) :
    k0_pay1 (F := Ideal) (k0_pay2 (F := Ideal) (fun z => X (e0 z)) (fun z => PT (e1 z)) (fun z => Q (e2 z)) (fun z => Dd (e3 z)))
      = fun y => outArr X PT Q Dd (e4 y) := by
  have i1 : e1 = id := funext fun z => funext fun a => Fin.ext (h1 z a)
  have i2 : e2 = id := funext fun z => funext fun a => Fin.ext (h2 z a)
  have i3 : e3 = id := funext fun z => funext fun a => Fin.ext (h3 z a)
  subst i1 i2 i3
  funext y
  obtain ⟨u, th, w, k, rfl⟩ : ∃ (u : Fin 1) (th : Fin 16) (w : Fin 256) (k : Fin 19),
      y = ix4 (n0 := 1) (n1 := 16) (n2 := 256) (n3 := 19) u th w k := ⟨y 0, y 1, y 2, y 3, eq_ix4 y⟩
  rw [pay_at]
  obtain ⟨g0, g1, g2, g3⟩ := h4 (ix4 (n0 := 1) (n1 := 16) (n2 := 256) (n3 := 19) u th w k)
  have hu : u.val = 0 := by omega
  have ek : e4 (ix4 (n0 := 1) (n1 := 16) (n2 := 256) (n3 := 19) u th w k) 3 = k := Fin.ext g3
  have ex : ∀ c : Fin 256, e0 (ix4 (n0 := 1) (n1 := 256) (n2 := 16) (n3 := 256) (0 : Fin 1) c th w)
      = ix4 (n0 := 16) (n1 := 256) (n2 := 128) (n3 := 256)
          (e4 (ix4 (n0 := 1) (n1 := 16) (n2 := 256) (n3 := 19) u th w k) 0) c
          (e4 (ix4 (n0 := 1) (n1 := 16) (n2 := 256) (n3 := 19) u th w k) 1)
          (e4 (ix4 (n0 := 1) (n1 := 16) (n2 := 256) (n3 := 19) u th w k) 2) := fun c => by
    obtain ⟨f0, f1, f2, f3⟩ := h0 (ix4 (n0 := 1) (n1 := 256) (n2 := 16) (n3 := 256) (0 : Fin 1) c th w)
    funext a
    apply Fin.ext
    match a with
    | ⟨0, _⟩ => exact f0.trans (by rw [g0, hu]; rfl)
    | ⟨1, _⟩ => exact f1
    | ⟨2, _⟩ => exact f2.trans g1.symm
    | ⟨3, _⟩ => exact f3.trans g2.symm
  unfold outArr
  simp only [id, ex, ek]

end Cert.UnitDistance.Body

end
-- ==== Proof.Region.lean ====
/-
  What the kernel program leaves in its result array, read off its run.

  The kernel call's output array [16, 128, 256, 19] is written in 128 blocks, one per grid point (b, s): the block of
  batch b, rows 16 s … 16 s + 15. What point (b, s) writes back is the body's result on the blocks it loaded, and
  that is the same block of ONE function of the arrays the windows read (the module before this one); the 128 blocks
  tile the array, so after the run the array IS that function. The one host operation after the call moves the
  class axis from last to second.
-/
import proofs.«150850_j75780402971149_2_alg».proof.Proof.Gen.KernelIdeal.Frame
import proofs.«150850_j75780402971149_2_alg».proof.Proof.Block
import Idealize.ShloMosaic.Lib.Pipeline.Value
import Idealize.ShloMosaic.Lib.StableHlo.Run
import Idealize.ShloMosaic.Lib.Tactic

set_option maxRecDepth 16384

noncomputable section

namespace Cert.UnitDistance.Region

open Idealize.ShloMosaic Idealize.ShloMosaic.TcCoe Idealize.SL.Sem
open Idealize.ShloMosaic.Pipeline (Dat)
open Cert.KernelIdeal Cert.KernelIdeal.Gen Cert.UnitDistance Cert.UnitDistance.Body

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The block indices at a grid point: the feature window sits at (batch, 0, slab, 0) where the output window sits at
    (batch, slab, 0, 0), and the three small windows at the origin. -/
theorem idx_facts : ∀ t : Fin cfg0.N,
    win0_0.index t (0 : Fin 4) = win0_4.index t (0 : Fin 4) ∧ win0_0.index t (1 : Fin 4) = 0
    ∧ win0_0.index t (2 : Fin 4) = win0_4.index t (1 : Fin 4) ∧ win0_0.index t (3 : Fin 4) = 0
    ∧ win0_4.index t (2 : Fin 4) = 0 ∧ win0_4.index t (3 : Fin 4) = 0
    ∧ win0_1.index t (0 : Fin 2) = 0 ∧ win0_1.index t (1 : Fin 2) = 0
    ∧ win0_2.index t (0 : Fin 1) = 0 ∧ win0_3.index t (0 : Fin 1) = 0 :=
  (by decide +kernel : ∀ t : Fin grid0.N, _)

/-- Every (batch, slab) is some grid point's output block. -/
theorem idx_onto : ∀ (q0 : Fin 16) (q1 : Fin 8), ∃ t : Fin cfg0.N, win0_4.index t = ![q0.val, q1.val, 0, 0] :=
  (by decide +kernel : ∀ (q0 : Fin 16) (q1 : Fin 8), ∃ t : Fin grid0.N, win0_4.index t = ![q0.val, q1.val, 0, 0])

/-- The region's output array as a function of the arrays the region finds. -/
abbrev regionOut (c : Dev nD) : S16x128x256x19.Idx → EReal :=
  outArr (V m c main_arg0) (V m c main_v9) (V m c main_v11) (V m c main_arg2)

/-- WHAT POINT t WRITES BACK is block t of that function. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4]
  unfold out0_4
  rw [View.canon_unit_zero hz4]
  simp only [View.ld_unit_zero (S := S1x256x16x256) hz4, View.ld_unit_zero (S := S256x19) hz2,
    View.ld_unit_zero (S := S19) hz1, View.ld_unit_zero (S := S1) hz1]
  obtain ⟨a0, a1, a2, a3, a4, a5, a6, a7, a8, a9⟩ := idx_facts t
  have key := block_fun (V m c main_arg0) (V m c main_v9) (V m c main_v11) (V m c main_arg2)
    (fun z => ((cfg0.win 0).blk t).view.emb z) (fun z => ((cfg0.win 1).blk t).view.emb z)
    (fun z => ((cfg0.win 2).blk t).view.emb z) (fun z => ((cfg0.win 3).blk t).view.emb z)
    (fun y => ((cfg0.win 4).blk t).view.emb y) (win0_4.index t (0 : Fin 4)) (win0_4.index t (1 : Fin 4))
    (fun z => ⟨by show win0_0.index t (0 : Fin 4) * 1 + 1 * (z 0).val = _; omega,
      by show win0_0.index t (1 : Fin 4) * 256 + 1 * (z 1).val = _; omega,
      by show win0_0.index t (2 : Fin 4) * 16 + 1 * (z 2).val = _; omega,
      by show win0_0.index t (3 : Fin 4) * 256 + 1 * (z 3).val = _; omega⟩)
    (fun z a => by
      match a with
      | ⟨0, _⟩ => show win0_1.index t (0 : Fin 2) * 256 + 1 * (z 0).val = (z 0).val; omega
      | ⟨1, _⟩ => show win0_1.index t (1 : Fin 2) * 19 + 1 * (z 1).val = (z 1).val; omega)
    (fun z a => by
      match a with
      | ⟨0, _⟩ => show win0_2.index t (0 : Fin 1) * 19 + 1 * (z 0).val = (z 0).val; omega)
    (fun z a => by
      match a with
      | ⟨0, _⟩ => show win0_3.index t (0 : Fin 1) * 1 + 1 * (z 0).val = (z 0).val; omega)
    (fun y => ⟨by show win0_4.index t (0 : Fin 4) * 1 + 1 * (y 0).val = _; omega,
      by show win0_4.index t (1 : Fin 4) * 16 + 1 * (y 1).val = _; omega,
      by show win0_4.index t (2 : Fin 4) * 256 + 1 * (y 2).val = _; omega,
      by show win0_4.index t (3 : Fin 4) * 19 + 1 * (y 3).val = _; omega⟩)
  funext j
  exact congrFun key _

/-- An index of the output array is in point t's block iff each coordinate is in the block's range on its axis. -/
theorem mem_blk (t : Fin cfg0.N) (i : S16x128x256x19.Idx) :
    i ∈ ((cfg0.win 4).blk t).view.set ↔ ∀ a : Fin 4, win0_4.index t a * S1x16x256x19.size a ≤ (i a).val
      ∧ (i a).val < win0_4.index t a * S1x16x256x19.size a + S1x16x256x19.size a := by
  show i ∈ ((View.whole main_v12).slice (win0_4.rect t)).set ↔ _
  rw [View.set_slice_whole, Rect.mem_set_unit]
  exact Iff.rfl

/-- The 128 blocks cover the array: entry (b, h, w, k) lies in the block of batch b and slab h / 16. -/
theorem cover (i : S16x128x256x19.Idx) :
    ∃ t : Fin cfg0.N, (cfg0.win 4).flush t = true ∧ i ∈ ((cfg0.win 4).blk t).view.set := by
  have hi0 : (i 0).val < 16 := (i 0).isLt
  have hi1 : (i 1).val < 128 := (i 1).isLt
  have hi2 : (i 2).val < 256 := (i 2).isLt
  have hi3 : (i 3).val < 19 := (i 3).isLt
  obtain ⟨t, ht⟩ := idx_onto ⟨(i 0).val, hi0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 19 ≤ (i 3).val ∧ (i 3).val < win0_4.index t (3 : Fin 4) * 19 + 19; omega

/-- THE OUTPUT ARRAY AFTER THE RUN is that function. -/
theorem final (c : Dev nD) : (dats m 0 c).arrAt 4 cfg0.N = regionOut m c :=
  (dats m 0 c).arrAt_eq_of_cover 4 (regionOut m c) (fun t _ => flushed_eq m c t) cover

/-- The one host operation after the call: the result is the output array with the class axis moved second. -/
theorem tail_eq (c : Dev nD) :
    Pipeline.afterTail₀ cfgs (dats m) 0 (V0 m) [hostOps1] c main_v13
      = transpose S16x19x128x256 [0, 3, 1, 2] (regionOut m c) transposes_S16x128x256x19_S16x19x128x256_0_3_1_2 := by
  unfold Pipeline.afterTail₀
  show StableHlo.after hostOps1 _ (Proc.devRef .tc main_v13) = _
  after_results
  exact congrArg (fun x => transpose S16x19x128x256 [0, 3, 1, 2] x transposes_S16x128x256x19_S16x19x128x256_0_3_1_2)
    ((Pipeline.withArrays_arr spec0 launch0.win.arr_inj c _ _ 4).trans (final m c))

/-- THE RUN, READ: every weakly fair execution terminates with the result at the transposed output function and the
    three arguments unchanged. -/
theorem run : θ_run defs (onTc (τ := τ) (main (F := Ideal))) ⟨m, fun _ => 0, ρ⟩ fun r => ∀ c : Dev nD,
      r.2.mem ((c.tc : Thread nD τ).loc main_v13)
        = transpose S16x19x128x256 [0, 3, 1, 2] (regionOut m c) transposes_S16x128x256x19_S16x19x128x256_0_3_1_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v13 (Pipeline.mem_restRefs_of main_v13 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).1 3).trans (((dats m 0 c).arrAt_in 3 rfl _).trans ((A_eq m c 3).trans (V_main_arg2 m c)))⟩)
    (run_main m ρ)

end Cert.UnitDistance.Region

end
-- ==== Proof.Prefix.lean ====
/-
  What the kernel program computes from the prototypes before its grid starts.

  From the prototypes p [19, 256] the program forms, row by row, the unit vector u(p_k) = p_k / max(sqrt(sum p_k²), eps):
  the row's sum of squares (a sum over the 256 channels that starts from the word of 0, which denotes 0 and
  disappears) is written as a column [19, 1], its root is bounded below by eps, and the column is spread along
  the channels before the division. Two arrays are passed on: the unit rows transposed to [256, 19] and narrowed
  to bf16 — on the extended reals a narrowing changes nothing, so the entry (c, k) is u(p_k)(c) — and the squared
  lengths of the unit rows [19], the entry k being sum u(p_k)².
-/
import proofs.«150850_j75780402971149_2_alg».proof.Proof.Gen.KernelIdeal
import proofs.«150850_j75780402971149_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.UnitDistance.Pre

open Idealize.ShloMosaic Idealize.ShloMosaic.ValueIdx Cert.KernelIdeal Cert.KernelIdeal.Gen

/-- The prototypes as the program's second argument. -/
abbrev ProtoArr : Type := (⟨S19x256, .f32⟩ : BufTy).Contents (Elt Ideal)

/-- The prototype of class k. -/
abbrev prow (p : ProtoArr) (k : Fin 19) : Fin 256 → EReal :=
  fun c => p (ix2 (n0 := 19) (n1 := 256) k c)

/-- The prototypes' rows scaled to unit length. -/
def unitRows (p : (⟨S19x256, .f32⟩ : BufTy).Contents (Elt Ideal)) : (⟨S19x256, .f32⟩ : BufTy).Contents (Elt Ideal) :=
  Host.divf p (broadcastInDim S19x256 ![0, 1] bcast_S19x1_S19x256_0_1
    (maximumf
      (Host.sqrt (broadcastInDim S19x1 ![0] bcast_S19_S19x1_0
        (Host.reduceAdd (mulf p p) (constant (F := Ideal) S_ .f32 0x00000000#32) reducesTo_S19x256_S19_d1 h_S_)))
      (broadcastInDim S19x1 ![] bcast_S_S19x1 (constant (F := Ideal) S_ .f32 0x2B8CBCCC#32))))

/-- The unit rows transposed and narrowed: [channel, class]. -/
def protoT (p : (⟨S19x256, .f32⟩ : BufTy).Contents (Elt Ideal)) : (⟨S256x19, .bf16⟩ : BufTy).Contents (Elt Ideal) :=
  truncf (F := Ideal) .bf16 (transpose S256x19 [1, 0] (unitRows p) transposes_S19x256_S256x19_1_0) bitsLt_bf16_f32

/-- The squared lengths of the unit rows. -/
def protoSq (p : (⟨S19x256, .f32⟩ : BufTy).Contents (Elt Ideal)) : (⟨S19, .f32⟩ : BufTy).Contents (Elt Ideal) :=
  Host.reduceAdd (mulf (unitRows p) (unitRows p)) (constant (F := Ideal) S_ .f32 0x00000000#32)
    reducesTo_S19x256_S19_d1 h_S_

/-! ## The layout operations at an index -/

/-- The host's root at an index is the root of the element. -/
theorem hostSqrt_at {s : Shape} {φ : FTy} (a : FVec Ideal s φ) (i : s.Idx) : Host.sqrt a i = Ideal.sqrt (a i) := rfl

/-- A sum over the channels that starts from the word of 0, read at class k. -/
theorem rowSum_at (y : (⟨S19x256, .f32⟩ : BufTy).Contents (Elt Ideal)) (k : Fin 19) :
    Host.reduceAdd y (constant (F := Ideal) S_ .f32 0x00000000#32) reducesTo_S19x256_S19_d1 h_S_ (ix1 (n := 19) k)
      = ∑ c : Fin 256, y (ix2 (n0 := 19) (n1 := 256) k c) := by
  rw [hostReduceAdd_apply, Ideal.hostReduceAdd_single reducesTo_S19x256_S19_d1 (by decide), constant_apply,
    Ideal.ofBits_zero_f32, zero_add]
  refine Finset.sum_congr rfl fun c _ => ?_
  exact congrArg y (funext fun a => Fin.ext (by match a with | ⟨0, _⟩ => rfl | ⟨1, _⟩ => rfl))

/-- A vector [19] written as a column [19, 1]. -/
theorem col_at {α : Type} (y : S19.Idx → α) (k : Fin 19) (z : Fin 1) :
    broadcastInDim S19x1 ![0] bcast_S19_S19x1_0 y (ix2 (n0 := 19) (n1 := 1) k z) = y (ix1 (n := 19) k) :=
  broadcastInDim_apply _ bcast_S19_S19x1_0 y _ (ix1 (n := 19) k) (fun a => match a with
    | ⟨0, _⟩ => by show k.val = if (19 : Nat) = 1 then 0 else k.val; rw [if_neg (by decide)])

/-- A column [19, 1] spread along the 256 channels. -/
theorem spread_at {α : Type} (y : S19x1.Idx → α) (k : Fin 19) (c : Fin 256) :
    broadcastInDim S19x256 ![0, 1] bcast_S19x1_S19x256_0_1 y (ix2 (n0 := 19) (n1 := 256) k c)
      = y (ix2 (n0 := 19) (n1 := 1) k 0) :=
  broadcastInDim_apply _ bcast_S19x1_S19x256_0_1 y _ (ix2 (n0 := 19) (n1 := 1) k 0) (fun a => match a with
    | ⟨0, _⟩ => by show k.val = if (19 : Nat) = 1 then 0 else k.val; rw [if_neg (by decide)]
    | ⟨1, _⟩ => by show 0 = if (1 : Nat) = 1 then 0 else c.val; rw [if_pos rfl])

/-! ## The three arrays -/

/-- Row k of the scaled prototypes is the unit vector of prototype k. -/
theorem unitRows_at (p : (⟨S19x256, .f32⟩ : BufTy).Contents (Elt Ideal)) (k : Fin 19) (c : Fin 256) :
    unitRows p (ix2 (n0 := 19) (n1 := 256) k c) = Cert.UnitDistance.unit (prow p k) c := by
  unfold unitRows
  rw [hostDivf_apply, spread_at, maximumf_apply, hostSqrt_at, col_at, rowSum_at, broadcastInDim_scalar_apply,
    constant_apply]
  rfl

/-- The entry (c, k) of the transposed, narrowed array is the unit vector of prototype k at channel c. -/
theorem protoT_at (p : (⟨S19x256, .f32⟩ : BufTy).Contents (Elt Ideal)) (c : Fin 256) (k : Fin 19) :
    protoT p (ix2 (n0 := 256) (n1 := 19) c k) = Cert.UnitDistance.unit (prow p k) c := by
  unfold protoT
  rw [truncf_apply, transpose_ix2_apply, unitRows_at]

/-- The entry k of the squared lengths is the sum of the squares of the unit vector of prototype k. -/
theorem protoSq_at (p : (⟨S19x256, .f32⟩ : BufTy).Contents (Elt Ideal)) (k : Fin 19) :
    protoSq p (ix1 (n := 19) k) = Cert.UnitDistance.sumSq (Cert.UnitDistance.unit (prow p k)) := by
  unfold protoSq
  rw [rowSum_at]
  unfold Cert.UnitDistance.sumSq
  refine Finset.sum_congr rfl fun c _ => ?_
  rw [mulf_apply, unitRows_at]

end Cert.UnitDistance.Pre

end
-- ==== Proof.KernelValue.lean ====
/-
  The kernel program's result is the specification function of its three arguments.

  The region's output function reads four arrays as the call finds them: the feature map and the scale are the
  program's arguments untouched; the [256, 19] matrix and its squared column lengths are what the host operations
  before the call computed from the prototypes — entry (c, k) the unit vector of prototype k at channel c, entry k
  the sum of that unit vector's squares. Substituting these, entry (b, h, w, k) of the output array is
  (0 - |s| · d) · 1 with d the distance between the unit vectors of pixel (b, h, w) and of prototype k; the last
  host operation moves the class axis second, and (0 - y) · 1 = (-y) / 1 on the extended reals.
-/
import proofs.«150850_j75780402971149_2_alg».proof.Proof.Region
import proofs.«150850_j75780402971149_2_alg».proof.Proof.Prefix

set_option maxRecDepth 16384

noncomputable section

namespace Cert.UnitDistance.Region

open Idealize.ShloMosaic Idealize.ShloMosaic.TcCoe Idealize.ShloMosaic.ValueIdx Idealize.SL.Sem
open Cert.KernelIdeal Cert.KernelIdeal.Gen Cert.UnitDistance Cert.UnitDistance.Body

variable (m : (ℓ : Loc nD τ sig) → Buf (Elt Ideal) ℓ) (ρ : Dev nD → PrngReg)

/-- The second window's array, as the call finds it, is the transposed unit prototypes. -/
theorem V_protoT (c : Dev nD) :
    (V m c main_v9 : S256x19.Idx → EReal) = Pre.protoT (m ((c.tc : Thread nD τ).loc main_arg1)) := by
  show StableHlo.after hostOps0 (fun b => m (c, b)) (Proc.devRef .tc main_v9) = _
  after_results
  rfl

/-- The third window's array, as the call finds it, is the unit prototypes' squared lengths. -/
theorem V_protoSq (c : Dev nD) :
    (V m c main_v11 : S19.Idx → EReal) = Pre.protoSq (m ((c.tc : Thread nD τ).loc main_arg1)) := by
  show StableHlo.after hostOps0 (fun b => m (c, b)) (Proc.devRef .tc main_v11) = _
  after_results
  rfl

/-- THE RESULT: the transposed output function is G of the program's three arguments. -/
theorem result_eq (c : Dev nD) :
    transpose S16x19x128x256 [0, 3, 1, 2] (regionOut m c) transposes_S16x128x256x19_S16x19x128x256_0_3_1_2
      = G (m ((c.tc : Thread nD τ).loc main_arg0)) (m ((c.tc : Thread nD τ).loc main_arg1))
          (m ((c.tc : Thread nD τ).loc main_arg2)) := by
  funext i
  obtain ⟨b, k, h, w, rfl⟩ : ∃ (b : Fin 16) (k : Fin 19) (h : Fin 128) (w : Fin 256),
      i = ix4 (n0 := 16) (n1 := 19) (n2 := 128) (n3 := 256) b k h w := ⟨i 0, i 1, i 2, i 3, eq_ix4 i⟩
  refine (transpose_apply [0, 3, 1, 2] _ transposes_S16x128x256x19_S16x19x128x256_0_3_1_2
    (ix4 (n0 := 16) (n1 := 19) (n2 := 128) (n3 := 256) b k h w)
    (ix4 (n0 := 16) (n1 := 128) (n2 := 256) (n3 := 19) b h w k)
    (fun a => match a with | ⟨0, _⟩ => rfl | ⟨1, _⟩ => rfl | ⟨2, _⟩ => rfl | ⟨3, _⟩ => rfl)).trans ?_
  show outArr (V m c main_arg0) (V m c main_v9) (V m c main_v11) (V m c main_arg2)
    (ix4 (n0 := 16) (n1 := 128) (n2 := 256) (n3 := 19) b h w k) = _
  rw [V_protoT, V_protoSq, V_main_arg0, V_main_arg2]
  unfold outArr
  simp only [Pre.protoT_at, Pre.protoSq_at]
  rw [zero_sub_mul_one]
  rfl

/-- The kernel program's run with its result named by the specification. -/
theorem run_G : θ_run defs (onTc (τ := τ) (main (F := Ideal))) ⟨m, fun _ => 0, ρ⟩ fun r => ∀ c : Dev nD,
      r.2.mem ((c.tc : Thread nD τ).loc main_v13)
        = G (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq m c), (h c).2⟩) (run m ρ)

end Cert.UnitDistance.Region

end
-- ==== Proof.RefValue.lean ====
/-
  The reference program computes the specification function G.

  The reference first moves the channel axis of the feature map [batch, channel, row, column] last and merges
  the three leading axes: row n = (b·128 + h)·256 + w of the resulting [524288, 256] array is the channel vector
  of the pixel (b, h, w), because n·256 + c splits back into the coordinates (b, h, w, c) by division with
  remainder and the transposition sends (b, h, w, c) to (b, c, h, w). Each row, and each of the 19 prototype
  rows, is divided by its Euclidean length bounded below by eps; every sum over the 256 channels starts from
  the word of 0, which denotes 0 and disappears. The entry (n, k) of the product of the two arrays of unit
  vectors is the sum over the channels of the products; the squared lengths of the unit vectors are spread along
  the other axis and added, twice the product is subtracted, the result is clamped at 0, its root is taken and
  multiplied by |s|. Last, the [524288, 19] array is split back into [16, 128, 256, 19] — the flat position
  ((b·128 + h)·256 + w)·19 + k has quotient n and remainder k on division by 19 — the class axis is moved
  second, and the entry is negated and divided by the word of 1. Read at (b, k, h, w), this is G.
-/
import proofs.«150850_j75780402971149_2_alg».proof.Proof.Gen.ReferenceIdeal.Read
import proofs.«150850_j75780402971149_2_alg».proof.Proof.Spec
import Idealize.ShloMosaic.Lib.ValueIdx
import Idealize.ShloMosaic.PureOps.Ideal.Laws

noncomputable section

namespace Cert.UnitDistance.Ref

open Idealize.ShloMosaic Idealize.ShloMosaic.ValueIdx Cert.ReferenceIdeal Cert.ReferenceIdeal.Read

/-- The feature map as the reference's first argument. -/
abbrev FeatArr : Type := (⟨S16x256x128x256, .f32⟩ : BufTy).Contents (Elt Ideal)
/-- The prototypes as the reference's second argument. -/
abbrev ProtoArr : Type := (⟨S19x256, .f32⟩ : BufTy).Contents (Elt Ideal)
/-- The one-entry scale as the reference's third argument. -/
abbrev ScaleArr : Type := (⟨S1, .f32⟩ : BufTy).Contents (Elt Ideal)

/-- The channel vector of the pixel (b, h, w). -/
abbrev pix (x0 : FeatArr) (b : Fin 16) (h : Fin 128) (w : Fin 256) : Fin 256 → EReal :=
  fun c => x0 (ix4 (n0 := 16) (n1 := 256) (n2 := 128) (n3 := 256) b c h w)
/-- The prototype of class k. -/
abbrev prow (x1 : ProtoArr) (k : Fin 19) : Fin 256 → EReal :=
  fun c => x1 (ix2 (n0 := 19) (n1 := 256) k c)

/-! ## The feature rows -/

/-- Row n = (b·128 + h)·256 + w of the merged array is the channel vector of the pixel (b, h, w). -/
theorem v1_at (x0 : FeatArr) (b : Fin 16) (h : Fin 128) (w : Fin 256) (c : Fin 256) (n : Fin 524288)
    (hn : n.val = (b.val * 128 + h.val) * 256 + w.val) :
    val_main_v1 (F := Ideal) x0 (ix2 (n0 := 524288) (n1 := 256) n c) = pix x0 b h w c := by
  rw [val_main_v1_apply, val_main_v0_apply]
  refine congrArg x0 (funext fun a => Fin.ext ?_)
  have hb := b.isLt; have hh := h.isLt; have hw := w.isLt; have hc := c.isLt
  match a with
  | ⟨0, _⟩ => show (n.val * 256 + c.val) / 8388608 = b.val; omega
  | ⟨1, _⟩ => show (n.val * 256 + c.val) % 256 = c.val; omega
  | ⟨2, _⟩ => show (n.val * 256 + c.val) / 65536 % 128 = h.val; omega
  | ⟨3, _⟩ => show (n.val * 256 + c.val) / 256 % 256 = w.val; omega

/-- The sum of the squares of row n. -/
theorem v3_at (x0 : FeatArr) (b : Fin 16) (h : Fin 128) (w : Fin 256) (n : Fin 524288)
    (hn : n.val = (b.val * 128 + h.val) * 256 + w.val) :
    val_main_v3 (F := Ideal) x0 (ix1 (n := 524288) n) = sumSq (pix x0 b h w) := by
  rw [val_main_v3_apply, val_main_cst_apply, Ideal.ofBits_def, Ideal.ofBits_zero_f32, zero_add]
  unfold sumSq
  refine Finset.sum_congr rfl fun c _ => ?_
  have e : idx_main_v3 (ix1 (n := 524288) n) c = ix2 (n0 := 524288) (n1 := 256) n c :=
    funext fun a => Fin.ext (by match a with | ⟨0, _⟩ => rfl | ⟨1, _⟩ => rfl)
  rw [val_main_v2_apply, Ideal.mulf_def, e, v1_at x0 b h w c n hn]

/-- The length of row n, bounded below by eps, spread along the channels. -/
theorem v8_at (x0 : FeatArr) (b : Fin 16) (h : Fin 128) (w : Fin 256) (c : Fin 256) (n : Fin 524288)
    (hn : n.val = (b.val * 128 + h.val) * 256 + w.val) :
    val_main_v8 (F := Ideal) x0 (ix2 (n0 := 524288) (n1 := 256) n c)
      = max (Ideal.sqrt (sumSq (pix x0 b h w))) (Ideal.ofBits .f32 0x2B8CBCCC#32) := by
  have e : idx_main_v4 (idx_main_v8 (ix2 (n0 := 524288) (n1 := 256) n c)) = ix1 (n := 524288) n :=
    funext fun a => Fin.ext (by match a with | ⟨0, _⟩ => rfl)
  rw [val_main_v8_apply, val_main_v7_apply, val_main_v5_apply, val_main_v4_apply, val_main_v6_apply,
    val_main_cst_0_apply, e, v3_at x0 b h w n hn]
  simp only [Ideal.maximumf_def, Ideal.hostUnary_sqrt_def, Ideal.ofBits_def]

/-- Row n scaled to unit length. -/
theorem v9_at (x0 : FeatArr) (b : Fin 16) (h : Fin 128) (w : Fin 256) (c : Fin 256) (n : Fin 524288)
    (hn : n.val = (b.val * 128 + h.val) * 256 + w.val) :
    val_main_v9 (F := Ideal) x0 (ix2 (n0 := 524288) (n1 := 256) n c) = unit (pix x0 b h w) c := by
  rw [val_main_v9_apply, v1_at x0 b h w c n hn, v8_at x0 b h w c n hn, Ideal.hostDivf_def]
  rfl

/-- The squared length of the unit vector of row n. -/
theorem v19_at (x0 : FeatArr) (b : Fin 16) (h : Fin 128) (w : Fin 256) (n : Fin 524288)
    (hn : n.val = (b.val * 128 + h.val) * 256 + w.val) :
    val_main_v19 (F := Ideal) x0 (ix1 (n := 524288) n) = sumSq (unit (pix x0 b h w)) := by
  rw [val_main_v19_apply, val_main_cst_3_apply, Ideal.ofBits_def, Ideal.ofBits_zero_f32, zero_add]
  unfold sumSq
  refine Finset.sum_congr rfl fun c _ => ?_
  have e : idx_main_v19 (ix1 (n := 524288) n) c = ix2 (n0 := 524288) (n1 := 256) n c :=
    funext fun a => Fin.ext (by match a with | ⟨0, _⟩ => rfl | ⟨1, _⟩ => rfl)
  rw [val_main_v18_apply, Ideal.mulf_def, e, v9_at x0 b h w c n hn]

/-! ## The prototype rows -/

/-- The sum of the squares of prototype k. -/
theorem v11_at (x1 : ProtoArr) (k : Fin 19) :
    val_main_v11 (F := Ideal) x1 (ix1 (n := 19) k) = sumSq (prow x1 k) := by
  rw [val_main_v11_apply, val_main_cst_1_apply, Ideal.ofBits_def, Ideal.ofBits_zero_f32, zero_add]
  unfold sumSq
  refine Finset.sum_congr rfl fun c _ => ?_
  have e : idx_main_v11 (ix1 (n := 19) k) c = ix2 (n0 := 19) (n1 := 256) k c :=
    funext fun a => Fin.ext (by match a with | ⟨0, _⟩ => rfl | ⟨1, _⟩ => rfl)
  rw [val_main_v10_apply, Ideal.mulf_def, e]

/-- Prototype k scaled to unit length. -/
theorem v17_at (x1 : ProtoArr) (k : Fin 19) (c : Fin 256) :
    val_main_v17 (F := Ideal) x1 (ix2 (n0 := 19) (n1 := 256) k c) = unit (prow x1 k) c := by
  have e : idx_main_v12 (idx_main_v16 (ix2 (n0 := 19) (n1 := 256) k c)) = ix1 (n := 19) k :=
    funext fun a => Fin.ext (by match a with | ⟨0, _⟩ => rfl)
  rw [val_main_v17_apply, val_main_v16_apply, val_main_v15_apply, val_main_v13_apply, val_main_v12_apply,
    val_main_v14_apply, val_main_cst_2_apply, e, v11_at x1 k]
  simp only [Ideal.hostDivf_def, Ideal.maximumf_def, Ideal.hostUnary_sqrt_def, Ideal.ofBits_def]
  rfl

/-- The squared length of the unit vector of prototype k. -/
theorem v21_at (x1 : ProtoArr) (k : Fin 19) :
    val_main_v21 (F := Ideal) x1 (ix1 (n := 19) k) = sumSq (unit (prow x1 k)) := by
  rw [val_main_v21_apply, val_main_cst_4_apply, Ideal.ofBits_def, Ideal.ofBits_zero_f32, zero_add]
  unfold sumSq
  refine Finset.sum_congr rfl fun c _ => ?_
  have e : idx_main_v21 (ix1 (n := 19) k) c = ix2 (n0 := 19) (n1 := 256) k c :=
    funext fun a => Fin.ext (by match a with | ⟨0, _⟩ => rfl | ⟨1, _⟩ => rfl)
  rw [val_main_v20_apply, Ideal.mulf_def, e, v17_at x1 k c]

/-! ## The pairs (row, class) -/

/-- The product of the unit vector of row n with the unit vector of prototype k. -/
theorem v27_at (x0 : FeatArr) (x1 : ProtoArr) (b : Fin 16) (h : Fin 128) (w : Fin 256) (k : Fin 19)
    (n : Fin 524288) (hn : n.val = (b.val * 128 + h.val) * 256 + w.val) :
    val_main_v27 (F := Ideal) x0 x1 (ix2 (n0 := 524288) (n1 := 19) n k)
      = ∑ c : Fin 256, unit (pix x0 b h w) c * unit (prow x1 k) c := by
  rw [val_main_v27_apply]
  refine Finset.sum_congr rfl fun c _ => ?_
  have el : lidx_main_v27 (ix2 (n0 := 524288) (n1 := 19) n k) c = ix2 (n0 := 524288) (n1 := 256) n c :=
    funext fun a => Fin.ext (by match a with | ⟨0, _⟩ => rfl | ⟨1, _⟩ => rfl)
  have er : ridx_main_v27 (ix2 (n0 := 524288) (n1 := 19) n k) c = ix2 (n0 := 19) (n1 := 256) k c :=
    funext fun a => Fin.ext (by match a with | ⟨0, _⟩ => rfl | ⟨1, _⟩ => rfl)
  rw [el, er, v9_at x0 b h w c n hn, v17_at x1 k c]

/-- The scaled distance between the two unit vectors at (n, k). -/
theorem v37_at (x0 : FeatArr) (x1 : ProtoArr) (x2 : ScaleArr) (b : Fin 16) (h : Fin 128) (w : Fin 256)
    (k : Fin 19) (n : Fin 524288) (hn : n.val = (b.val * 128 + h.val) * 256 + w.val) :
    val_main_v37 (F := Ideal) x0 x1 x2 (ix2 (n0 := 524288) (n1 := 19) n k)
      = max (x2 (ix1 (0 : Fin 1))) (-(x2 (ix1 (0 : Fin 1))))
          * dist (unit (pix x0 b h w)) (unit (prow x1 k)) (sumSq (unit (prow x1 k))) := by
  have e19 : idx_main_v22 (idx_main_v24 (ix2 (n0 := 524288) (n1 := 19) n k)) = ix1 (n := 524288) n :=
    funext fun a => Fin.ext (by match a with | ⟨0, _⟩ => rfl)
  have e21 : idx_main_v23 (idx_main_v25 (ix2 (n0 := 524288) (n1 := 19) n k)) = ix1 (n := 19) k :=
    funext fun a => Fin.ext (by match a with | ⟨0, _⟩ => rfl)
  have es : idx_main_v35 (idx_main_v36 (ix2 (n0 := 524288) (n1 := 19) n k)) = ix1 (0 : Fin 1) :=
    funext fun a => Fin.ext (by match a with | ⟨0, _⟩ => rfl)
  rw [val_main_v37_apply, val_main_v36_apply, val_main_v35_apply, val_main_v34_apply, val_main_v33_apply,
    val_main_v32_apply, val_main_v30_apply, val_main_v26_apply, val_main_v24_apply, val_main_v22_apply,
    val_main_v25_apply, val_main_v23_apply, val_main_v29_apply, val_main_v28_apply, val_main_cst_5_apply,
    val_main_v31_apply, val_main_cst_6_apply, e19, e21, es, v19_at x0 b h w n hn, v21_at x1 k,
    v27_at x0 x1 b h w k n hn]
  simp only [Ideal.mulf_def, Ideal.addf_def, Ideal.subf_def, Ideal.maximumf_def, Ideal.hostUnary_sqrt_def,
    Ideal.hostAbsf_def, Ideal.absf_def, Ideal.ofBits_def]
  rfl

/-! ## The result -/

/-- The reference's result is the specification function. -/
theorem val_eq (x0 : FeatArr) (x1 : ProtoArr) (x2 : ScaleArr) :
    val_main_v42 (F := Ideal) x0 x1 x2 = G x0 x1 x2 := by
  funext i
  obtain ⟨b, k, h, w, rfl⟩ : ∃ (b : Fin 16) (k : Fin 19) (h : Fin 128) (w : Fin 256),
      i = ix4 (n0 := 16) (n1 := 19) (n2 := 128) (n3 := 256) b k h w := ⟨i 0, i 1, i 2, i 3, eq_ix4 i⟩
  have hb := b.isLt; have hh := h.isLt; have hw := w.isLt; have hk := k.isLt
  have hlt : (b.val * 128 + h.val) * 256 + w.val < 524288 := by omega
  have e : idx_main_v38 (idx_main_v39 (ix4 (n0 := 16) (n1 := 19) (n2 := 128) (n3 := 256) b k h w))
      = ix2 (n0 := 524288) (n1 := 19) ⟨(b.val * 128 + h.val) * 256 + w.val, hlt⟩ k :=
    funext fun a => Fin.ext (by
      match a with
      | ⟨0, _⟩ => show (((b.val * 128 + h.val) * 256 + w.val) * 19 + k.val) / 19 = (b.val * 128 + h.val) * 256 + w.val; omega
      | ⟨1, _⟩ => show (((b.val * 128 + h.val) * 256 + w.val) * 19 + k.val) % 19 = k.val; omega)
  rw [val_main_v42_apply, val_main_v40_apply, val_main_v39_apply, val_main_v38_apply, val_main_v41_apply,
    val_main_cst_7_apply, e, v37_at x0 x1 x2 b h w k ⟨(b.val * 128 + h.val) * 256 + w.val, hlt⟩ rfl]
  simp only [Ideal.hostDivf_def, Ideal.hostNegf_def, Ideal.negf_def, Ideal.ofBits_def]
  rfl

end Cert.UnitDistance.Ref

end
-- ==== Proof.lean ====
/-
  The kernel and its reference compute one function, and the kernel's programs run.

  Both programs take a feature map [16, 256, 128, 256], 19 prototypes of 256 channels and a one-entry scale, and
  return, for every pixel (b, h, w) and class k, the negated scaled Euclidean distance between the pixel's channel
  vector and the prototype, both first scaled to unit length (the length bounded below by eps), the distance taken
  through the expansion |u|² + |v|² - 2 u·v clamped at zero. The kernel streams the feature map in 128 slabs of 16
  rows, forms the 4096 pixel vectors of a slab, and multiplies them with the prototypes' unit vectors — prepared,
  with their squared lengths, by host operations before the call — as a matrix product; the reference reshapes the
  whole map to 524288 pixel vectors and contracts them against the prototypes. On the extended reals a change of
  float format is the identity and a sum does not depend on its order, so the two results are the same function of
  the arguments, entry by entry (the specification module states it; one module per program proves that the
  program's result is that function). The only place where the two texts differ arithmetically is the end: the
  kernel subtracts from zero and multiplies by one where the reference negates and divides by one; these agree on
  every extended real, so the inputs' finiteness is never used.

  The three frames: the two kernel programs' runs are the generated ones, and the reference's frame is its run with
  the result dropped. The idealized kernel is the kernel's own text read on the extended reals: nothing was rewritten.
-/
import proofs.«150850_j75780402971149_2_alg».proof.Defs
import proofs.«150850_j75780402971149_2_alg».proof.Proof.Gen.Kernel
import proofs.«150850_j75780402971149_2_alg».proof.Proof.Gen.Kernel.Skeleton
import proofs.«150850_j75780402971149_2_alg».proof.Proof.Gen.Kernel.Launch
import proofs.«150850_j75780402971149_2_alg».proof.Proof.Gen.Kernel.Points
import proofs.«150850_j75780402971149_2_alg».proof.Proof.Gen.Kernel.Frame
import proofs.«150850_j75780402971149_2_alg».proof.Proof.Gen.KernelIdeal
import proofs.«150850_j75780402971149_2_alg».proof.Proof.Gen.KernelIdeal.Skeleton
import proofs.«150850_j75780402971149_2_alg».proof.Proof.Gen.KernelIdeal.Launch
import proofs.«150850_j75780402971149_2_alg».proof.Proof.Gen.KernelIdeal.Points
import proofs.«150850_j75780402971149_2_alg».proof.Proof.Gen.KernelIdeal.Frame
import proofs.«150850_j75780402971149_2_alg».proof.Proof.Gen.ReferenceIdeal
import proofs.«150850_j75780402971149_2_alg».proof.Proof.Gen.ReferenceIdeal.Run
import proofs.«150850_j75780402971149_2_alg».proof.Proof.Gen.ReferenceIdeal.Read
import proofs.«150850_j75780402971149_2_alg».proof.Proof.Gen.Pre_finite_inputs
import proofs.«150850_j75780402971149_2_alg».proof.Proof.KernelValue
import proofs.«150850_j75780402971149_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on the three arguments both programs end with the specification function of those
    arguments in their result arrays. -/
theorem algebraic : Cert.algebraic_KernelIdeal_ReferenceIdeal := by
  intro m ρ m' ρ' _ hagree
  refine ⟨_, Cert.UnitDistance.Region.run_G m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.UnitDistance.Ref.val_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
